-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x32x64 : Shape := ⟨3, ![100000, 32, 64]⟩
abbrev S100000x32 : Shape := ⟨2, ![100000, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x32x64 : S_.BroadcastsInDim S100000x32x64 (![] : Fin 0 → Fin S100000x32x64.rank)
  reducesTo_S100000x32x64_S_d0_1_2 : S100000x32x64.ReducesTo [0, 1, 2] S_

variable [Facts]

def fn {F : FTy → Type} [FloatOps F] (main_arg0 : FVec F S100000x64 .f32) (main_arg1 : FVec F S100000x32x64 .f32) (main_arg2 : FVec F S100000x64 .f32) (main_arg3 : IVec S100000x32 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x32x64 .f32 := Host.absf main_arg1
  let main_cst_0 : FVec F S_ .f32 := constant S_ .f32 0x7F800000#32
  let main_v5 : FVec F S100000x32x64 .f32 := broadcastInDim S100000x32x64 ![] bcast_S_S100000x32x64 main_cst_0
  let main_v6 : IVec S100000x32x64 1 := cmpf .olt main_v4 main_v5
  let main_c_1 : IVec S_ 1 := constantI S_ 1 1#1
  let main_v7 : IVec S_ 1 := (fun x v => Host.reduce IntOp.andi x v reducesTo_S100000x32x64_S_d0_1_2 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  main_v13
-- ==== Kernel.lean ====
abbrev S100000x64 : Shape := ⟨2, ![100000, 64]⟩
abbrev S100000x32x64 : Shape := ⟨3, ![100000, 32, 64]⟩
abbrev S100000x32 : Shape := ⟨2, ![100000, 32]⟩
abbrev S1000x64 : Shape := ⟨2, ![1000, 64]⟩
abbrev S1000x32x64 : Shape := ⟨3, ![1000, 32, 64]⟩

abbrev nBuf : Space → Nat
  | .hbm => 5
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S100000x32x64, .f32⟩
  | .hbm, ⟨2, _⟩ => ⟨S100000x64, .f32⟩
  | .hbm, ⟨3, _⟩ => ⟨S100000x32, .i32⟩
  | .hbm, ⟨4, _⟩ => ⟨S100000x64, .f32⟩
  | .local _ .vmem, ⟨0, _⟩ => ⟨S1000x64, .f32⟩
  | .local _ .vmem, ⟨1, _⟩ => ⟨S1000x64, .f32⟩
  | .local _ .vmem, ⟨2, _⟩ => ⟨S1000x32x64, .f32⟩
  | .local _ .vmem, ⟨3, _⟩ => ⟨S1000x32x64, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S1000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1000x32x64_S1000x32x64_0_0_0 : ∀ a, (![0, 0, 0] : Fin 3 → Nat) a + S1000x32x64.size a ≤ S1000x32x64.size a
  h_S1000x32x64 : 0 < S1000x32x64.numel
  reduces_S1000x32x64_S1000x64 : S1000x32x64.Reduces [1] S1000x64
  inb_S1000x64_S1000x64_0_0 : ∀ a, (![0, 0] : Fin 2 → Nat) a + S1000x64.size a ≤ S1000x64.size a
  h_S1000x64 : 0 < S1000x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S100000x64.size a
  hwx0_0 : ∀ i : grid0.Coords, EltTy.bits .f32 = 32 ∨ (Rect.block (s := S100000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32x64.size a ≤ S100000x32x64.size a
  hwx0_1 : ∀ i : grid0.Coords, EltTy.bits .f32 = 32 ∨ (Rect.block (s := S100000x32x64) S1000x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S100000x64.size a
  hwx0_2 : ∀ i : grid0.Coords, EltTy.bits .f32 = 32 ∨ (Rect.block (s := S100000x64) S1000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S100000x64.size a
  hwx0_3 : ∀ i : grid0.Coords, EltTy.bits .f32 = 32 ∨ (Rect.block (s := S100000x64) S1000x64.size (cc0_transform_3 i) (hinb0_3 i)).WholeWords (EltTy.packing .f32)

variable [Facts₀]

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x32x64 : Shape := ⟨3, ![100000, 32, 64]⟩
abbrev S100000x32 : Shape := ⟨2, ![100000, 32]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x32x64, .f32⟩
  | .hbm, ⟨2, _⟩ => ⟨S100000x64, .f32⟩
  | .hbm, ⟨3, _⟩ => ⟨S100000x32, .i32⟩
  | .hbm, ⟨4, _⟩ => ⟨S_, .f32⟩
  | .hbm, ⟨5, _⟩ => ⟨S100000x64, .f32⟩
  | .hbm, ⟨6, _⟩ => ⟨S100000x64, .f32⟩
  | .hbm, ⟨7, _⟩ => ⟨S_, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .f32⟩
  | .hbm, ⟨13, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  reducesTo_S100000x32x64_S100000x64_d1 : S100000x32x64.ReducesTo [1] S100000x64
  h_S_ : 0 < S_.numel
  bcast_S_S100000x64 : S_.BroadcastsInDim S100000x64 (![] : Fin 0 → Fin S100000x64.rank)

variable [Facts₀]

class Facts : Prop extends Facts₀ where

variable [Facts]
-- ==== Proof.AggSpec.lean ====
/-
  The specification, written once and away from both programs.

  A graph has 100000 nodes; node `p` carries a feature row `x p` of 64 numbers, a second row `h p`, and 32 neighbour
  rows `nagg p k` (k < 32), each again of 64 numbers. The layer adds to every node's row the SUM of its 32 neighbour
  rows, feature by feature, and then mixes the result with `h` by two fixed weights `a` and `b` (the f32 words nearest
  to 9/10 and 1/10):

      out p q  =  a · (x p q + Σ_{k<32} nagg p k q)  +  b · h p q.

  Everything is read on the extended reals, where `+` and `·` are the exact ones. The two weights are kept as the
  words the programs print: both programs print the same two words, so their values are never needed.
-/
import Idealize.ShloMosaic.PureOps.Ideal
import Idealize.ShloMosaic.Lib.ValueIdx

noncomputable section

namespace Cert.AggCombine

open Idealize.ShloMosaic Idealize.ShloMosaic.ValueIdx
open scoped BigOperators

/-- The sum of node `i 0`'s 32 neighbour rows at feature `i 1`. -/
def nbrSum (nagg : (⟨3, ![100000, 32, 64]⟩ : Shape).Idx → EReal) (i : (⟨2, ![100000, 64]⟩ : Shape).Idx) : EReal :=
  ∑ k : Fin 32, nagg (ix3 (i 0) k (i 1))

/-- The layer's result, index by index: `a · (x + Σ_k nagg) + b · h`. -/
def combine (x : (⟨2, ![100000, 64]⟩ : Shape).Idx → EReal) (nagg : (⟨3, ![100000, 32, 64]⟩ : Shape).Idx → EReal)
    (h : (⟨2, ![100000, 64]⟩ : Shape).Idx → EReal) : (⟨2, ![100000, 64]⟩ : Shape).Idx → EReal := fun i =>
  Ideal.ofBits .f32 0x3F666666#32 * (x i + nbrSum nagg i) + Ideal.ofBits .f32 0x3DCCCCCD#32 * h i

/-- The same formula on a block of 1000 consecutive nodes: what one grid point computes from the rows it is handed. -/
def combineBlock (x : (⟨2, ![1000, 64]⟩ : Shape).Idx → EReal) (nagg : (⟨3, ![1000, 32, 64]⟩ : Shape).Idx → EReal)
    (h : (⟨2, ![1000, 64]⟩ : Shape).Idx → EReal) : (⟨2, ![1000, 64]⟩ : Shape).Idx → EReal := fun y =>
  Ideal.ofBits .f32 0x3F666666#32 * (x y + ∑ k : Fin 32, nagg (ix3 (y 0) k (y 1))) + Ideal.ofBits .f32 0x3DCCCCCD#32 * h y

end Cert.AggCombine

end
-- ==== Proof.LibMidAxisSum.lean ====
/-
  A sum over the MIDDLE axis of a rank-3 array, read at an entry.

  Summing an [a, k, b] array over its middle axis gives an [a, b] array whose entry `(p, q)` is the sum of the `k`
  entries `(p, j, q)`, `j < k`. On the extended reals the vector reduction is exactly that finite sum (the accumulator,
  being the neutral word of addition, contributes nothing). General in the three extents and in the float format.
-/
import Idealize.ShloMosaic.PureOps.Ideal.Laws
import Idealize.ShloMosaic.Lib.ValueIdx

namespace Cert.LibMidAxisSum

open Idealize.ShloMosaic Idealize.ShloMosaic.ValueIdx
open scoped BigOperators

/-- A `vector.multi_reduction <add>` over axis 1 of an [a, k, b] vector, at entry `y = (p, q)` of the [a, b] result and on
    the extended reals, is `Σ_{j<k} P (p, j, q)`. `h`, `hφ`, `hacc` are the reduction's own side conditions, as a printed
    program carries them. -/
theorem midAxisSum_apply {a k b : Nat} {φ : FTy} (P : FVec Ideal ⟨3, ![a, k, b]⟩ φ) (acc : BitVec φ.bits)
    (h : (⟨3, ![a, k, b]⟩ : Shape).Reduces [1] ⟨2, ![a, b]⟩) (hφ : FKind.Formats φ) (hacc : acc = FKind.add.neutral φ hφ)
    (y : (⟨2, ![a, b]⟩ : Shape).Idx) :
    multiReduction .add [1] ⟨2, ![a, b]⟩ P acc h hφ hacc y = ∑ j : Fin k, P (ix3 (y 0) j (y 1)) := by
  refine (Ideal.multiReduction_add_single P acc h hφ hacc y).trans ?_
  refine Finset.sum_congr rfl fun j _ => congrArg P (funext fun d => Fin.ext ?_)
  match d with
  | ⟨0, _⟩ => rfl
  | ⟨1, _⟩ => rfl
  | ⟨2, _⟩ => rfl

end Cert.LibMidAxisSum
-- ==== Proof.RefSide.lean ====
/-
  The reference computes the specification.

  The reference program is ten whole-array operations: a sum of the 32 neighbour rows started from the zero word,
  the addition of `x`, two multiplications by a weight spread over the whole array, and a final addition. Read at
  an index `i`, each operation acts on the operands' entries at `i`; the neighbour sum at `i = (p, q)` is the initial
  value `0` plus the sum over `k` of `nagg (p, k, q)`. Since `0 + s = s` on the extended reals, the last stage at
  `i` is `a · (x i + Σ_k nagg (p, k, q)) + b · h i`: the specification's `combine`.
-/
import proofs.«107699_j81192061764218_1_alg».proof.Proof.Gen.ReferenceIdeal.Read
import proofs.«107699_j81192061764218_1_alg».proof.Proof.AggSpec
import Idealize.ShloMosaic.PureOps.Ideal.Laws

noncomputable section

namespace Cert.AggCombine

open Idealize.ShloMosaic Idealize.ShloMosaic.ValueIdx Cert.ReferenceIdeal Cert.ReferenceIdeal.Read
open scoped BigOperators

/-- Where the reference's neighbour sum at `i = (p, q)` reads its operand for the `k`-th term: at `(p, k, q)`. -/
theorem idx_main_v0_eq (i : S100000x64.Idx) (k : Fin 32) : idx_main_v0 i k = ix3 (i 0) k (i 1) :=
  funext fun a => by match a with | ⟨0, _⟩ => rfl | ⟨1, _⟩ => rfl | ⟨2, _⟩ => rfl

/-- The reference's last stage, as a function of the three float arguments, is `combine`. -/
theorem ref_eq_combine (x0 : (⟨S100000x64, .f32⟩ : BufTy).Contents (Elt Ideal))
    (x1 : (⟨S100000x32x64, .f32⟩ : BufTy).Contents (Elt Ideal))
    (x2 : (⟨S100000x64, .f32⟩ : BufTy).Contents (Elt Ideal)) :
    val_main_v6 (F := Ideal) x0 x1 x2 = combine x0 x1 x2 := by
  funext i
  rw [val_main_v6_apply, val_main_v3_apply, val_main_v5_apply, val_main_v2_apply, val_main_v4_apply,
    val_main_v1_apply, val_main_v0_apply, val_main_cst_0_apply, val_main_cst_1_apply, val_main_cst_apply]
  simp only [Ideal.addf_def, Ideal.mulf_def, Ideal.ofBits_def, Ideal.ofBits_zero_f32, zero_add, idx_main_v0_eq]
  rfl

end Cert.AggCombine

end
-- ==== Proof.KernelSide.lean ====
/-
  The kernel computes the specification.

  The kernel walks the 100000 nodes in 100 blocks of 1000 consecutive nodes. At block `t` it is handed rows
  `1000·t … 1000·t + 999` of `x`, of `h`, and of the neighbour array (all 32 neighbours, all 64 features), and writes
  rows `1000·t … 1000·t + 999` of the output.

  * Inside a block, the sum over the middle axis of the [1000, 32, 64] piece at `(r, q)` is `Σ_{k<32} piece (r, k, q)`,
    so the block written is `a · (x (r, q) + Σ_k nagg (r, k, q)) + b · h (r, q)` (`out_apply`).
  * Row `r` of block `t` is row `1000·t + r` of each array, and neighbour `k` of that row is neighbour `k` of node
    `1000·t + r`: the formula depends on ONE node's rows only. So the block the kernel writes at `t` is block `t` of the
    whole-array specification `combine` (`flushed_eq`).
  * Node `p` lies in block `p / 1000`; the blocks cover every node (`cover`). Hence the output array after the run is
    `combine` of the three float arguments (`final`, `kernel_run`).
-/
import proofs.«107699_j81192061764218_1_alg».proof.Proof.Gen.KernelIdeal.Value
import proofs.«107699_j81192061764218_1_alg».proof.Proof.AggSpec
import proofs.«107699_j81192061764218_1_alg».proof.Proof.LibMidAxisSum
import Idealize.ShloMosaic.PureOps.Ideal.Laws
import Idealize.ShloMosaic.Lib.Pipeline.Value

noncomputable section

namespace Cert.AggCombine

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block -/

theorem zero2 : (![0, 0] : Fin 2 → Nat) = fun _ => 0 := funext fun a => by fin_cases a <;> rfl
theorem zero3 : (![0, 0, 0] : Fin 3 → Nat) = fun _ => 0 := funext fun a => by fin_cases a <;> rfl

/-- The sum over the neighbour axis of a [1000, 32, 64] piece, at row `y 0` and feature `y 1`: the 32 terms
    `piece (y 0, k, y 1)`. On the extended reals the accumulator's zero word adds nothing. -/
theorem nbrAxisSum_apply (P1 : FVec Ideal S1000x32x64 .f32) (y : S1000x64.Idx) :
    multiReduction .add [1] S1000x64 P1 0x00000000#32 reduces_S1000x32x64_S1000x64 (.inl rfl) rfl y
      = ∑ k : Fin 32, P1 (ix3 (y 0) k (y 1)) :=
  Cert.LibMidAxisSum.midAxisSum_apply P1 0x00000000#32 reduces_S1000x32x64_S1000x64 (.inl rfl) rfl y

/-- What a grid point leaves in the output's block, from the three blocks it was handed: the specification's formula
    on the block. -/
theorem out_apply (x0 : Vec Ideal S1000x64 .f32) (x1 : Vec Ideal S1000x32x64 .f32) (x2 : Vec Ideal S1000x64 .f32)
    (y : S1000x64.Idx) : out0_3 x0 x1 x2 y = combineBlock x0 x1 x2 y := by
  unfold out0_3
  rw [Value.canon3_eq]
  simp only [View.ld_unit_zero (S := S1000x64) zero2, View.ld_unit_zero (S := S1000x32x64) zero3]
  have e0 : Value.ix3_0 y = y := funext fun a => by match a with | ⟨0, _⟩ => rfl | ⟨1, _⟩ => rfl
  have e1 : Value.ix3_1 y = y := funext fun a => by match a with | ⟨0, _⟩ => rfl | ⟨1, _⟩ => rfl
  have e2 : Value.ix3_2 y = y := funext fun a => by match a with | ⟨0, _⟩ => rfl | ⟨1, _⟩ => rfl
  show Ideal.ofBits .f32 0x3F666666#32 * (x0 (Value.ix3_0 y)
      + multiReduction .add [1] S1000x64 x1 0x00000000#32 reduces_S1000x32x64_S1000x64 (.inl rfl) rfl (Value.ix3_1 y))
    + Ideal.ofBits .f32 0x3DCCCCCD#32 * x2 (Value.ix3_2 y) = _
  rw [e0, e1, e2, nbrAxisSum_apply]
  rfl

/-- The block formula at `y` is the whole-array formula at `i` as soon as the block's rows are the arrays' rows at node
    `i 0`: the entry of `x` and of `h`, and each of the 32 neighbour entries. (The formula reads one node's rows only.) -/
theorem combineBlock_eq_combine (X0 : (⟨2, ![100000, 64]⟩ : Shape).Idx → EReal) (X1 : (⟨3, ![100000, 32, 64]⟩ : Shape).Idx → EReal)
    (X2 : (⟨2, ![100000, 64]⟩ : Shape).Idx → EReal) (b0 : (⟨2, ![1000, 64]⟩ : Shape).Idx → EReal)
    (b1 : (⟨3, ![1000, 32, 64]⟩ : Shape).Idx → EReal) (b2 : (⟨2, ![1000, 64]⟩ : Shape).Idx → EReal)
    (y : (⟨2, ![1000, 64]⟩ : Shape).Idx) (i : (⟨2, ![100000, 64]⟩ : Shape).Idx)
    (hb0 : b0 y = X0 i) (hb1 : ∀ k : Fin 32, b1 (ix3 (y 0) k (y 1)) = X1 (ix3 (i 0) k (i 1))) (hb2 : b2 y = X2 i) :
    combineBlock b0 b1 b2 y = combine X0 X1 X2 i := by
  unfold combineBlock combine nbrSum
  rw [hb0, hb2]
  simp only [hb1]

/-! ## From blocks to the array -/

variable (m : (ℓ : Loc nD τ sig) → Buf (Elt Ideal) ℓ) (ρ : Dev nD → PrngReg)

/-- The four index maps, decided over the 100 grid points: every input block starts at the output block's first row
    and covers whole rows (all 32 neighbours, all 64 features). -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 3) = win0_3.index t (0 : Fin 2) ∧ win0_1.index t (1 : Fin 3) = 0
    ∧ win0_1.index t (2 : Fin 3) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, _)

/-- Every one of the 100 row blocks is some grid point's. -/
theorem idx_onto : ∀ q0 : Fin 100, ∃ t : Fin cfg0.N, win0_3.index t = ![q0.val, 0] :=
  (by decide +kernel : ∀ q0 : Fin 100, ∃ t : Fin grid0.N, win0_3.index t = ![q0.val, 0])

/-- What point `t` writes back is block `t` of `combine` of the argument arrays. -/
theorem flushed_eq (c : Dev nD) (t : Fin cfg0.N) :
    (dats m 0 c).flushed 3 t
      = ((cfg0.win 3).blk t).view.read (Elt Ideal) (combine (V m c main_arg0) (V m c main_arg1) (V m c main_arg2)) := by
  rw [Value.flushed3]
  obtain ⟨e00, e01, e10, e11, e12, e20, e21⟩ := idx_facts t
  funext j
  show out0_3 (iblk m c 0 t) (iblk m c 1 t) (iblk m c 2 t) j
    = combine (V m c main_arg0) (V m c main_arg1) (V m c main_arg2) (((cfg0.win 3).blk t).view.emb j)
  refine (out_apply (iblk m c 0 t) (iblk m c 1 t) (iblk m c 2 t) j).trans ?_
  have h0 : ((cfg0.win 0).blk t).view.emb j = ((cfg0.win 3).blk t).view.emb j := by
    funext a; apply Fin.ext
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 64 + 1 * (j 1).val = win0_3.index t (1 : Fin 2) * 64 + 1 * (j 1).val; omega
  have h2 : ((cfg0.win 2).blk t).view.emb j = ((cfg0.win 3).blk t).view.emb j := by
    funext a; apply Fin.ext
    match a with
    | ⟨0, _⟩ => show win0_2.index t (0 : Fin 2) * 1000 + 1 * (j 0).val = win0_3.index t (0 : Fin 2) * 1000 + 1 * (j 0).val; omega
    | ⟨1, _⟩ => show win0_2.index t (1 : Fin 2) * 64 + 1 * (j 1).val = win0_3.index t (1 : Fin 2) * 64 + 1 * (j 1).val; omega
  have h1 : ∀ k : Fin 32, ((cfg0.win 1).blk t).view.emb (ix3 (j 0) k (j 1))
      = ix3 ((((cfg0.win 3).blk t).view.emb j) 0) k ((((cfg0.win 3).blk t).view.emb j) 1) := by
    intro k; funext a; apply Fin.ext
    match a with
    | ⟨0, _⟩ => show win0_1.index t (0 : Fin 3) * 1000 + 1 * (j 0).val = win0_3.index t (0 : Fin 2) * 1000 + 1 * (j 0).val; omega
    | ⟨1, _⟩ => show win0_1.index t (1 : Fin 3) * 32 + 1 * k.val = k.val; omega
    | ⟨2, _⟩ => show win0_1.index t (2 : Fin 3) * 64 + 1 * (j 1).val = win0_3.index t (1 : Fin 2) * 64 + 1 * (j 1).val; omega
  exact combineBlock_eq_combine (V m c main_arg0) (V m c main_arg1) (V m c main_arg2)
    (iblk m c 0 t) (iblk m c 1 t) (iblk m c 2 t) j (((cfg0.win 3).blk t).view.emb j)
    (congrArg (V m c main_arg0) h0) (fun k => congrArg (V m c main_arg1) (h1 k)) (congrArg (V m c main_arg2) h2)

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S1000x64.size a ≤ (i a).val
      ∧ (i a).val < win0_3.index t a * S1000x64.size a + S1000x64.size a := by
  show i ∈ ((View.whole main_v0).slice (win0_3.rect t)).set ↔ _
  rw [View.set_slice_whole, Rect.mem_set_unit]
  exact Iff.rfl

/-- Node `p` is written by the point whose block is number `p / 1000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 64 ≤ (i 1).val ∧ (i 1).val < win0_3.index t (1 : Fin 2) * 64 + 64; omega

/-- The output array after the run is `combine` of the three float arguments. -/
theorem final (c : Dev nD) :
    (dats m 0 c).arrAt 3 cfg0.N
      = combine (m ((c : Thread nD τ).loc main_arg0)) (m ((c : Thread nD τ).loc main_arg1)) (m ((c : Thread nD τ).loc main_arg2)) :=
  (dats m 0 c).arrAt_eq_of_cover 3 (combine (V m c main_arg0) (V m c main_arg1) (V m c main_arg2))
    (fun t _ => flushed_eq m c t) cover

/-- The kernel's run: it terminates without a fault, the output holds `combine` of the arguments, the arguments are
    unchanged. -/
theorem kernel_run : θ_run defs (onTc (τ := τ) (main (F := Ideal))) ⟨m, fun _ => 0, ρ⟩ fun r => ∀ c : Dev nD,
      r.2.mem ((c : Thread nD τ).loc main_v0)
        = combine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.AggCombine

end
-- ==== Proof.lean ====
/-
  A graph layer on 100000 nodes with 64 features and 32 neighbour rows per node:

      out p q  =  a · (x p q + Σ_{k<32} nagg p k q)  +  b · h p q,

  with `a`, `b` the f32 words nearest to 9/10 and 1/10; the integer neighbour table is handed back untouched.

  The kernel computes this 1000 nodes at a time, summing the neighbour axis inside each block; the reference sums the
  neighbour axis of the whole array at once, starting from zero. On the extended reals the two agree entry by entry:
  an entry of the result depends on one node's rows only, so cutting the nodes into blocks changes nothing, and the
  reference's initial zero adds nothing (`0 + s = s`). No law is used that could fail at an infinity — the same sums and
  products are taken in the same order on both sides — so the inputs' finiteness is never opened.

  * `Proof/AggSpec.lean`    — the formula `combine`, stated once, away from both programs;
  * `Proof/RefSide.lean`    — the reference's last stage is `combine`;
  * `Proof/LibMidAxisSum.lean` — a sum over the middle axis of an [a, k, b] array at an entry, for any extents;
  * `Proof/KernelSide.lean` — each block the kernel writes is a block of `combine`, the blocks cover the array, so the
                              kernel's output array is `combine`;
  * here                    — the three frames, the (empty) idealization ledger, and the two runs side by side.
-/
import proofs.«107699_j81192061764218_1_alg».proof.Defs
import proofs.«107699_j81192061764218_1_alg».proof.Proof.Gen.Kernel
import proofs.«107699_j81192061764218_1_alg».proof.Proof.Gen.Kernel.Skeleton
import proofs.«107699_j81192061764218_1_alg».proof.Proof.Gen.Kernel.Launch
import proofs.«107699_j81192061764218_1_alg».proof.Proof.Gen.Kernel.Points
import proofs.«107699_j81192061764218_1_alg».proof.Proof.Gen.Kernel.Frame
import proofs.«107699_j81192061764218_1_alg».proof.Proof.Gen.KernelIdeal
import proofs.«107699_j81192061764218_1_alg».proof.Proof.Gen.KernelIdeal.Skeleton
import proofs.«107699_j81192061764218_1_alg».proof.Proof.Gen.KernelIdeal.Launch
import proofs.«107699_j81192061764218_1_alg».proof.Proof.Gen.KernelIdeal.Points
import proofs.«107699_j81192061764218_1_alg».proof.Proof.Gen.KernelIdeal.Frame
import proofs.«107699_j81192061764218_1_alg».proof.Proof.Gen.ReferenceIdeal
import proofs.«107699_j81192061764218_1_alg».proof.Proof.Gen.KernelIdeal.Value
import proofs.«107699_j81192061764218_1_alg».proof.Proof.Gen.ReferenceIdeal.Run
import proofs.«107699_j81192061764218_1_alg».proof.Proof.Gen.ReferenceIdeal.Read
import proofs.«107699_j81192061764218_1_alg».proof.Proof.Gen.Pre_finite_inputs
import proofs.«107699_j81192061764218_1_alg».proof.Proof.AggSpec
import proofs.«107699_j81192061764218_1_alg».proof.Proof.LibMidAxisSum
import proofs.«107699_j81192061764218_1_alg».proof.Proof.RefSide
import proofs.«107699_j81192061764218_1_alg».proof.Proof.KernelSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is ten whole-array operations, none of which writes an argument: its run, with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote none of its operations, so there is nothing to preserve. -/
theorem preserves : Cert.preserves_Kernel_KernelIdeal := trivial

/-- From memories that agree on the four arguments, both programs end with the float result at `combine` of the
    arguments and the integer table as it was. -/
theorem algebraic : Cert.algebraic_KernelIdeal_ReferenceIdeal := by
  intro m ρ m' ρ' _ hagree
  refine ⟨fun c => Cert.AggCombine.combine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg3), ?_, ?_⟩
  · exact (θ_run Cert.KernelIdeal.defs _ _).mono (fun r h c => ⟨(h c).1, (h c).2.2.2.2, (h c).2⟩)
      (Cert.AggCombine.kernel_run m ρ)
  · refine (θ_run Cert.ReferenceIdeal.defs _ _).mono
      (fun r h c => ⟨(h c).1.trans ?_, (h c).2.1.trans (hagree c).2.2.2, (h c).2.2⟩)
      (Cert.ReferenceIdeal.Value.run (F := Ideal) m' ρ')
    rw [Cert.ReferenceIdeal.Read.val_main_v6_eq, Cert.AggCombine.ref_eq_combine, (hagree c).1, (hagree c).2.1,
      (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
